-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x1024 : Shape := ⟨3, ![8, 8192, 1024]⟩
abbrev S16x64x3 : Shape := ⟨3, ![16, 64, 3]⟩
abbrev S_ : Shape := ⟨0, ![]⟩

class Facts : Prop where
  bcast_S_S8x8192x1024 : S_.BroadcastsInDim S8x8192x1024 (![] : Fin 0 → Fin S8x8192x1024.rank)
  reducesTo_S8x8192x1024_S_d0_1_2 : S8x8192x1024.ReducesTo [0, 1, 2] S_
  h_S_ : 0 < S_.numel
  bcast_S_S16x64x3 : S_.BroadcastsInDim S16x64x3 (![] : Fin 0 → Fin S16x64x3.rank)
  reducesTo_S16x64x3_S_d0_1_2 : S16x64x3.ReducesTo [0, 1, 2] S_

variable [Facts]

def fn {F : FTy → Type} [FloatOps F] (main_arg0 : FVec F S8x8192x1024 .f32) (main_arg1 : FVec F S16x64x3 .f32) : IVec S_ 1 :=
  let main_v0 : FVec F S8x8192x1024 .f32 := Host.absf main_arg0
  let main_cst : FVec F S_ .f32 := constant S_ .f32 0x7F800000#32
  let main_v1 : FVec F S8x8192x1024 .f32 := broadcastInDim S8x8192x1024 ![] bcast_S_S8x8192x1024 main_cst
  let main_v2 : IVec S8x8192x1024 1 := cmpf .olt main_v0 main_v1
  let main_c : IVec S_ 1 := constantI S_ 1 1#1
  let main_v3 : IVec S_ 1 := (fun x v => Host.reduce IntOp.andi x v reducesTo_S8x8192x1024_S_d0_1_2 h_S_) main_v2 main_c
  let main_v4 : FVec F S16x64x3 .f32 := Host.absf main_arg1
  let main_cst_0 : FVec F S_ .f32 := constant S_ .f32 0x7F800000#32
  let main_v5 : FVec F S16x64x3 .f32 := broadcastInDim S16x64x3 ![] bcast_S_S16x64x3 main_cst_0
  let main_v6 : IVec S16x64x3 1 := cmpf .olt main_v4 main_v5
  let main_c_1 : IVec S_ 1 := constantI S_ 1 1#1
  let main_v7 : IVec S_ 1 := (fun x v => Host.reduce IntOp.andi x v reducesTo_S16x64x3_S_d0_1_2 h_S_) main_v6 main_c_1
  let main_v8 : IVec S_ 1 := andi main_v3 main_v7
  main_v8
-- ==== Kernel.lean ====
abbrev S8x8192x1024 : Shape := ⟨3, ![8, 8192, 1024]⟩
abbrev S16x64x3 : Shape := ⟨3, ![16, 64, 3]⟩
abbrev S16x64x1 : Shape := ⟨3, ![16, 64, 1]⟩
abbrev S16x64 : Shape := ⟨2, ![16, 64]⟩
abbrev S1x1x1024 : Shape := ⟨3, ![1, 1, 1024]⟩
abbrev S1x1024x1024 : Shape := ⟨3, ![1, 1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S8x8192x1024, .f32⟩
  | .hbm, ⟨1, _⟩ => ⟨S16x64x3, .f32⟩
  | .hbm, ⟨2, _⟩ => ⟨S16x64x1, .f32⟩
  | .hbm, ⟨3, _⟩ => ⟨S16x64, .f32⟩
  | .hbm, ⟨4, _⟩ => ⟨S16x64, .f32⟩
  | .hbm, ⟨5, _⟩ => ⟨S1x1x1024, .f32⟩
  | .hbm, ⟨6, _⟩ => ⟨S8x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1024, .f32⟩
  | .local _ .vmem, ⟨3, _⟩ => ⟨S1x1024x1024, .f32⟩
  | .local _ .vmem, ⟨4, _⟩ => ⟨S1x1024x1024, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S16x64x3_S16x64x1_0_0_0 : S16x64x3.Slices ![0, 0, 0] S16x64x1
  shapeCasts_S16x64x1_S16x64 : S16x64x1.ShapeCasts S16x64
  shapeCasts_S16x64_S1x1x1024 : S16x64.ShapeCasts S1x1x1024
  inb_S1x1024x1024_S1x1024x1024_0_0_0 : ∀ a, (![0, 0, 0] : Fin 3 → Nat) a + S1x1024x1024.size a ≤ S1x1024x1024.size a
  h_S1x1024x1024 : 0 < S1x1024x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1x1024 : S1x1x1024.ShapeCasts S1x1x1024
  broadcasts_S1x1x1024_S1x1024x1024 : S1x1x1024.Broadcasts S1x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x8192x1024.size a
  hwx0_0 : ∀ i : grid0.Coords, EltTy.bits .f32 = 32 ∨ (Rect.block (s := S8x8192x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1x1024.size a ≤ S1x1x1024.size a
  hwx0_1 : ∀ i : grid0.Coords, EltTy.bits .f32 = 32 ∨ (Rect.block (s := S1x1x1024) S1x1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x8192x1024.size a
  hwx0_2 : ∀ i : grid0.Coords, EltTy.bits .f32 = 32 ∨ (Rect.block (s := S8x8192x1024) S1x1024x1024.size (cc0_transform_2 i) (hinb0_2 i)).WholeWords (EltTy.packing .f32)

variable [Facts₀]

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x8192x1024 : Shape := ⟨3, ![8, 8192, 1024]⟩
abbrev S16x64x3 : Shape := ⟨3, ![16, 64, 3]⟩
abbrev S8x8192x16x64 : Shape := ⟨4, ![8, 8192, 16, 64]⟩
abbrev S16x64x1 : Shape := ⟨3, ![16, 64, 1]⟩
abbrev S16x64 : Shape := ⟨2, ![16, 64]⟩
abbrev S1x1x16x64 : Shape := ⟨4, ![1, 1, 16, 64]⟩

abbrev nBuf : Space → Nat
  | .hbm => 11
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S16x64x3, .f32⟩
  | .hbm, ⟨2, _⟩ => ⟨S8x8192x16x64, .f32⟩
  | .hbm, ⟨3, _⟩ => ⟨S16x64x1, .f32⟩
  | .hbm, ⟨4, _⟩ => ⟨S16x64, .f32⟩
  | .hbm, ⟨5, _⟩ => ⟨S16x64, .f32⟩
  | .hbm, ⟨6, _⟩ => ⟨S8x8192x16x64, .f32⟩
  | .hbm, ⟨7, _⟩ => ⟨S1x1x16x64, .f32⟩
  | .hbm, ⟨8, _⟩ => ⟨S8x8192x16x64, .f32⟩
  | .hbm, ⟨9, _⟩ => ⟨S8x8192x16x64, .f32⟩
  | .hbm, ⟨10, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S8x8192x1024_S8x8192x16x64 : S8x8192x1024.ShapeCasts S8x8192x16x64
  slices_S16x64x3_S16x64x1_0_0_0 : S16x64x3.Slices ![0, 0, 0] S16x64x1
  shapeCasts_S16x64x1_S16x64 : S16x64x1.ShapeCasts S16x64
  bcast_S16x64_S1x1x16x64_2_3 : S16x64.BroadcastsInDim S1x1x16x64 (![2, 3] : Fin 2 → Fin S1x1x16x64.rank)
  bcast_S1x1x16x64_S8x8192x16x64_0_1_2_3 : S1x1x16x64.BroadcastsInDim S8x8192x16x64 (![0, 1, 2, 3] : Fin 4 → Fin S8x8192x16x64.rank)
  shapeCasts_S8x8192x16x64_S8x8192x1024 : S8x8192x16x64.ShapeCasts S8x8192x1024

variable [Facts₀]

class Facts : Prop extends Facts₀ where

variable [Facts]
-- ==== Proof.CosScale.lean ====
/-
  The readout both programs compute.

  A token is a row of 1024 channels; channel `e` belongs to head `e / 64` and is qubit `e % 64` of that head
  (the row-major reading of a head-by-qubit table of 16 × 64 entries as one row of 1024). Each qubit carries three
  rotation angles, of which only the first (the RY angle) survives in the expectation of Pauli-Z:

      readout x p (b, s, e) = cos (x (b, s, e)) · cos (p (e / 64, e % 64, 0)).

  Here: that function over the literal shapes, the angle's index as a function of the token index, and the
  one fact about that index both sides use (an index of the angle table is determined by its three coordinates).
  The outer cosine is written with the vector unit's cosine and the inner one with the host's, as the kernel
  computes them; at the ideal instance the two are one function on the extended reals.
-/
import Idealize.ShloMosaic.PureOps.Ideal
import Idealize.ShloMosaic.Lib.ValueIdx

noncomputable section

namespace Cert.CosScale

open Idealize.ShloMosaic

/-- Batch × sequence × channel. -/
abbrev Tokens : Shape := ⟨3, ![8, 8192, 1024]⟩
/-- Head × qubit × rotation axis. -/
abbrev Angles : Shape := ⟨3, ![16, 64, 3]⟩

/-- The entry of the angle table that channel `(i 2)` of a token reads: head `e / 64`, qubit `e % 64`, axis 0. -/
abbrev angleOf (i : Tokens.Idx) : Angles.Idx := fun a => match a with
  | ⟨0, _⟩ => ⟨(i 2).val / 64, by have h : (i 2).val < 1024 := (i 2).isLt; show (i 2).val / 64 < 16; omega⟩
  | ⟨1, _⟩ => ⟨(i 2).val % 64, by show (i 2).val % 64 < 64; omega⟩
  | ⟨2, _⟩ => ⟨0, by show 0 < 3; omega⟩

/-- An index of the angle table with those three coordinates is that entry. -/
theorem eq_angleOf (i : Tokens.Idx) (k : Angles.Idx) (h0 : (k 0).val = (i 2).val / 64) (h1 : (k 1).val = (i 2).val % 64)
    (h2 : (k 2).val = 0) : k = angleOf i := by
  funext a
  apply Fin.ext
  match a with
  | ⟨0, _⟩ => exact h0
  | ⟨1, _⟩ => exact h1
  | ⟨2, _⟩ => exact h2

variable {F : FTy → Type} [FloatOps F]

/-- The expectation of Pauli-Z, channel by channel: the cosine of the token's entry times the cosine of its qubit's
    RY angle. -/
def readout (x : Tokens.Idx → Elt F .f32) (p : Angles.Idx → Elt F .f32) : Tokens.Idx → Elt F .f32 :=
  fun i => FloatOps.mulf (FloatOps.cos (x i)) (FloatOps.hostUnary .cos (p (angleOf i)))

theorem readout_apply (x : Tokens.Idx → Elt F .f32) (p : Angles.Idx → Elt F .f32) (i : Tokens.Idx) :
    readout x p i = FloatOps.mulf (FloatOps.cos (x i)) (FloatOps.hostUnary .cos (p (angleOf i))) := rfl

/-- On the extended reals the two cosines are one function, so the readout is `cos x · cos p` with the exact cosine
    (with one and the same convention at the two infinities) in both places. -/
theorem readout_ideal (x : Tokens.Idx → Elt Ideal .f32) (p : Angles.Idx → Elt Ideal .f32) (i : Tokens.Idx) :
    readout (F := Ideal) x p i = Ideal.cos (x i) * Ideal.cos (p (angleOf i)) := rfl

end Cert.CosScale

end
-- ==== Proof.ScaleRow.lean ====
/-
  The row of per-channel scales the kernel's host prefix hands to the region.

  Before the region the kernel's @main slices the first of the three rotation angles out of the angle table,
  drops the unit axis, takes the cosine, and lays the 16 × 64 table out as one row of 1024 entries. Read at entry
  `(0, 0, e)` that row is the cosine of the angle at `(e / 64, e % 64, 0)`: a row-major cast keeps the flat position,
  and `e = 64 · (e / 64) + e % 64`.
-/
import proofs.«129193_j65481071406286_2_alg».proof.Proof.Gen.KernelIdeal.Frame
import proofs.«129193_j65481071406286_2_alg».proof.Proof.CosScale
import Idealize.ShloMosaic.Lib.Pipeline.Value
import Idealize.ShloMosaic.Lib.StableHlo.Run

noncomputable section

namespace Cert.KernelIdeal.Scale

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The scale row as the region finds it: the host prefix's four operations applied to the angle table. -/
theorem row_eq (c : Dev nD) :
    (V m c main_v3 : S1x1x1024.Idx → Elt F .f32)
      = shapeCast S1x1x1024 (Host.cos (shapeCast S16x64 (extractStridedSlice S16x64x1 ![0, 0, 0]
          (m ((c : Thread nD τ).loc main_arg1)) slices_S16x64x3_S16x64x1_0_0_0) shapeCasts_S16x64x1_S16x64))
          shapeCasts_S16x64_S1x1x1024 := by
  dsimp only [Gen.V, Gen.hostOps0]
  after_results
  rfl

/-- Entry `j` of the row, seen as a head and a qubit: the flat position `(j 2)` split by 64. -/
abbrev headQubit (j : S1x1x1024.Idx) : S16x64.Idx := fun a => match a with
  | ⟨0, _⟩ => ⟨(j 2).val / 64, by have h : (j 2).val < 1024 := (j 2).isLt; show (j 2).val / 64 < 16; omega⟩
  | ⟨1, _⟩ => ⟨(j 2).val % 64, by show (j 2).val % 64 < 64; omega⟩

/-- The same with the unit axis the slice leaves behind. -/
abbrev headQubitUnit (j : S1x1x1024.Idx) : S16x64x1.Idx := fun a => match a with
  | ⟨0, _⟩ => ⟨(j 2).val / 64, by have h : (j 2).val < 1024 := (j 2).isLt; show (j 2).val / 64 < 16; omega⟩
  | ⟨1, _⟩ => ⟨(j 2).val % 64, by show (j 2).val % 64 < 64; omega⟩
  | ⟨2, _⟩ => ⟨0, Nat.one_pos⟩

/-- THE ROW AT AN ENTRY: entry `j` of the scale row is the host's cosine of the angle at head `(j 2) / 64`, qubit
    `(j 2) % 64`, axis 0 — for any index `k` of the angle table with those coordinates. -/
theorem row_apply (c : Dev nD) (j : S1x1x1024.Idx) (k : S16x64x3.Idx)
    (h0 : (k 0).val = (j 2).val / 64) (h1 : (k 1).val = (j 2).val % 64) (h2 : (k 2).val = 0) :
    (V m c main_v3 : S1x1x1024.Idx → Elt F .f32) j
      = FloatOps.hostUnary .cos ((m ((c : Thread nD τ).loc main_arg1) : S16x64x3.Idx → Elt F .f32) k) := by
  have hj0 : (j 0).val < 1 := (j 0).isLt
  have hj1 : (j 1).val < 1 := (j 1).isLt
  have hj2 : (j 2).val < 1024 := (j 2).isLt
  rw [row_eq]
  -- the row-major cast of the 16 × 64 table to one row keeps the flat position
  refine (shapeCast_apply _ shapeCasts_S16x64_S1x1x1024 j (headQubit j)
    (by rewrite [Shape.rowMajor_val_two, Shape.rowMajor_val_three]
        show (j 2).val / 64 * 64 + (j 2).val % 64 = ((j 0).val * 1 + (j 1).val) * 1024 + (j 2).val
        omega)).trans ?_
  -- the cosine is taken entry by entry
  show FloatOps.hostUnary .cos (shapeCast S16x64 (extractStridedSlice S16x64x1 ![0, 0, 0]
      (m ((c : Thread nD τ).loc main_arg1)) slices_S16x64x3_S16x64x1_0_0_0) shapeCasts_S16x64x1_S16x64 (headQubit j)) = _
  congr 1
  -- dropping the unit axis keeps the flat position
  refine (shapeCast_apply _ shapeCasts_S16x64x1_S16x64 (headQubit j) (headQubitUnit j)
    (by rewrite [Shape.rowMajor_val_three, Shape.rowMajor_val_two]
        show ((j 2).val / 64 * 64 + (j 2).val % 64) * 1 + 0 = (j 2).val / 64 * 64 + (j 2).val % 64
        omega)).trans ?_
  -- the slice starts at the origin
  exact extractStridedSlice_apply ![0, 0, 0] _ slices_S16x64x3_S16x64x1_0_0_0 (headQubitUnit j) k (fun a => match a with
    | ⟨0, _⟩ => by show (k 0).val = 0 + (j 2).val / 64; omega
    | ⟨1, _⟩ => by show (k 1).val = 0 + (j 2).val % 64; omega
    | ⟨2, _⟩ => by show (k 2).val = 0 + 0; omega)

end Cert.KernelIdeal.Scale

end
-- ==== Proof.KernelArray.lean ====
/-
  The kernel's result array is the readout.

  The region walks an 8 × 8 grid; point `(b, s)` stages the block of 1024 consecutive tokens `s` of batch entry `b`
  (all 1024 channels), the one scale row, and writes back the block of the result at the same place. In a block the
  body leaves, at entry `(0, r, e)`, the cosine of the token block's entry times entry `(0, 0, e)` of the scale row:
  the row is spread down the 1024 tokens. An entry of a block sits in its array at block index × block extent +
  the entry's coordinate, on every axis; the token block and the result block have the same block index, and the
  scale row's is zero — so what a point writes back is the block of the readout at that place. The 64 blocks tile
  the array (token `q` of batch entry `b` lies in the block of point `(b, q / 1024)`), so the array ends as the readout.
-/
import proofs.«129193_j65481071406286_2_alg».proof.Proof.Gen.KernelIdeal.Value
import proofs.«129193_j65481071406286_2_alg».proof.Proof.ScaleRow
import proofs.«129193_j65481071406286_2_alg».proof.Proof.CosScale
import Idealize.ShloMosaic.Lib.Pipeline.Value

noncomputable section

namespace Cert.KernelIdeal.Array

open Cert.KernelIdeal Cert.KernelIdeal.Gen Cert.KernelIdeal.Value Idealize.ShloMosaic Idealize.ShloMosaic.TcCoe Idealize.SL.Sem
open Idealize.ShloMosaic.Pipeline (Dat)
open Cert.CosScale (readout readout_apply angleOf)

variable {F : FTy → Type} [FloatOps F]
variable (m : (ℓ : Loc nD τ sig) → Buf (Elt F) ℓ) (ρ : Dev nD → PrngReg)

theorem origin : (![0, 0, 0] : Fin 3 → Nat) = fun _ => 0 := funext fun a => by fin_cases a <;> rfl

/-- WHAT THE BODY LEAVES in the result block, entry by entry, for any token block `P0` and scale row `P1`: the
    cosine of the token block's entry times the row's entry in the same channel. -/
theorem body_apply (P0 : Vec F S1x1024x1024 .f32) (P1 : Vec F S1x1x1024 .f32) (y : S1x1024x1024.Idx) :
    out0_2 P0 P1 y = FloatOps.mulf (FloatOps.cos (P0 y)) (P1 (ix2_1 y)) := by
  have hy0 : (y 0).val < 1 := (y 0).isLt
  unfold out0_2
  rw [View.ld_unit_zero (S := S1x1024x1024) origin, View.ld_unit_zero (S := S1x1x1024) origin, canon2_eq]
  show FloatOps.mulf (FloatOps.cos (P0 (ix2_0 y))) (P1 (ix2_1 y)) = _
  have e : ix2_0 y = y := by
    funext a; apply Fin.ext
    match a with
    | ⟨0, _⟩ => show 0 = (y 0).val; omega
    | ⟨1, _⟩ => rfl
    | ⟨2, _⟩ => rfl
  rw [e]

/-- The printed index maps over the 64 grid points: the token window moves with the result window, every window's
    channel block index is zero, the scale row never moves, and the result's block indices stay below 8. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0 ∧ win0_2.index t (2 : Fin 3) = 0
    ∧ win0_1.index t (0 : Fin 3) = 0 ∧ win0_1.index t (1 : Fin 3) = 0 ∧ win0_1.index t (2 : Fin 3) = 0
    ∧ win0_2.index t (0 : Fin 3) ≤ 7 ∧ win0_2.index t (1 : Fin 3) ≤ 7 :=
  (by decide +kernel : ∀ t : Fin grid0.N, _)

/-- Every block of the result array is some point's. -/
theorem idx_onto : ∀ (q0 : Fin 8) (q1 : Fin 8), ∃ t : Fin cfg0.N, win0_2.index t = ![q0.val, q1.val, 0] :=
  (by decide +kernel : ∀ (q0 : Fin 8) (q1 : Fin 8), ∃ t : Fin grid0.N, win0_2.index t = ![q0.val, q1.val, 0])

/-- WHAT POINT `t` WRITES BACK is block `t` of the readout of the two argument arrays. -/
theorem flushed_eq (c : Dev nD) (t : Fin cfg0.N) :
    (dats m 0 c).flushed 2 t = ((cfg0.win 2).blk t).view.read (Elt F)
      (readout (m ((c : Thread nD τ).loc main_arg0)) (m ((c : Thread nD τ).loc main_arg1))) := by
  rw [flushed2]
  obtain ⟨e0, e1, e2, e3, e4, e5, e6, -, -⟩ := idx_facts t
  funext y
  have hy0 : (y 0).val < 1 := (y 0).isLt
  have hy1 : (y 1).val < 1024 := (y 1).isLt
  have hy2 : (y 2).val < 1024 := (y 2).isLt
  show out0_2 (iblk m c 0 t) (iblk m c 1 t) y
    = readout (m ((c : Thread nD τ).loc main_arg0)) (m ((c : Thread nD τ).loc main_arg1)) (((cfg0.win 2).blk t).view.emb y)
  refine (body_apply (iblk m c 0 t) (iblk m c 1 t) y).trans ?_
  rw [readout_apply]
  -- the token block's entry is the token array's entry under the result block's
  have hx : iblk m c 0 t y = m ((c : Thread nD τ).loc main_arg0) (((cfg0.win 2).blk t).view.emb y) := by
    have hemb : ((cfg0.win 0).blk t).view.emb y = ((cfg0.win 2).blk t).view.emb y := by
      funext a; apply Fin.ext
      match a with
      | ⟨0, _⟩ => show win0_0.index t (0 : Fin 3) * 1 + 1 * (y 0).val = win0_2.index t (0 : Fin 3) * 1 + 1 * (y 0).val; omega
      | ⟨1, _⟩ => show win0_0.index t (1 : Fin 3) * 1024 + 1 * (y 1).val = win0_2.index t (1 : Fin 3) * 1024 + 1 * (y 1).val; omega
      | ⟨2, _⟩ => show win0_0.index t (2 : Fin 3) * 1024 + 1 * (y 2).val = win0_2.index t (2 : Fin 3) * 1024 + 1 * (y 2).val; omega
    show V m c main_arg0 (((cfg0.win 0).blk t).view.emb y) = _
    rw [V_main_arg0, hemb]
  -- the scale row's entry in that channel is the cosine of the channel's angle
  have hs : iblk m c 1 t (ix2_1 y)
      = FloatOps.hostUnary .cos (m ((c : Thread nD τ).loc main_arg1) (angleOf (((cfg0.win 2).blk t).view.emb y))) := by
    show V m c main_v3 (((cfg0.win 1).blk t).view.emb (ix2_1 y)) = _
    refine Scale.row_apply m c _ _ ?_ ?_ ?_
    · show (win0_2.index t (2 : Fin 3) * 1024 + 1 * (y 2).val) / 64 = (win0_1.index t (2 : Fin 3) * 1024 + 1 * (y 2).val) / 64
      rw [e3, e6]
    · show (win0_2.index t (2 : Fin 3) * 1024 + 1 * (y 2).val) % 64 = (win0_1.index t (2 : Fin 3) * 1024 + 1 * (y 2).val) % 64
      rw [e3, e6]
    · rfl
  rw [hx, hs]

/-- An index of the array is in point `t`'s block iff each coordinate is in the block's range on its axis. -/
theorem mem_blk (t : Fin cfg0.N) (i : S8x8192x1024.Idx) :
    i ∈ ((cfg0.win 2).blk t).view.set ↔ ∀ a : Fin 3, win0_2.index t a * S1x1024x1024.size a ≤ (i a).val
      ∧ (i a).val < win0_2.index t a * S1x1024x1024.size a + S1x1024x1024.size a := by
  show i ∈ ((View.whole main_v4).slice (win0_2.rect t)).set ↔ _
  rw [View.set_slice_whole, Rect.mem_set_unit]
  exact Iff.rfl

/-- THE BLOCKS TILE THE ARRAY: token `(i 1)` of batch entry `(i 0)` lies in the block of the point whose block index
    is `((i 0), (i 1) / 1024, 0)`. -/
theorem cover (i : S8x8192x1024.Idx) :
    ∃ t : Fin cfg0.N, (cfg0.win 2).flush t = true ∧ i ∈ ((cfg0.win 2).blk t).view.set := by
  have hi0 : (i 0).val < 8 := (i 0).isLt
  have hi1 : (i 1).val < 8192 := (i 1).isLt
  have hi2 : (i 2).val < 1024 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1024 ≤ (i 2).val ∧ (i 2).val < win0_2.index t (2 : Fin 3) * 1024 + 1024; omega

/-- THE ARRAY after the run is the readout of the two argument arrays. -/
theorem final (c : Dev nD) : (dats m 0 c).arrAt 2 cfg0.N
    = readout (m ((c : Thread nD τ).loc main_arg0)) (m ((c : Thread nD τ).loc main_arg1)) :=
  (dats m 0 c).arrAt_eq_of_cover 2 _ (fun t _ => flushed_eq m c t) cover

/-- The kernel's run, read: the result array at the readout of the arguments, the arguments unchanged. -/
theorem run : θ_run defs (onTc (τ := τ) (main (F := F))) ⟨m, fun _ => 0, ρ⟩ fun r => ∀ c : Dev nD,
      r.2.mem ((c : Thread nD τ).loc main_v4) = readout (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.KernelIdeal.Array

end
-- ==== Proof.ReferenceRead.lean ====
/-
  The reference is the readout.

  The reference views a token's 1024 channels as 16 heads of 64 qubits, takes the cosine of every entry, multiplies by
  the cosine of the qubit's RY angle spread over batch and sequence, and flattens the heads back. Flattening after
  splitting is the identity on the token index, and entry `(b, s, e)` of the result sits at head `e / 64`, qubit
  `e % 64` of the split view: so the result at `(b, s, e)` is `cos (x (b, s, e)) · cos (p (e / 64, e % 64, 0))`.
  Both cosines are the host's here; on the extended reals the host's cosine and the vector unit's are one function.
-/
import proofs.«129193_j65481071406286_2_alg».proof.Proof.Gen.ReferenceIdeal.Read
import proofs.«129193_j65481071406286_2_alg».proof.Proof.CosScale

noncomputable section

namespace Cert.ReferenceIdeal.RefValue

open Cert.ReferenceIdeal Cert.ReferenceIdeal.Gen Cert.ReferenceIdeal.Read Idealize.ShloMosaic Idealize.ShloMosaic.TcCoe
open Cert.CosScale (readout angleOf eq_angleOf)

/-- Splitting the channels into heads and flattening them back returns to the same token entry. -/
theorem split_flatten (i : S8x8192x1024.Idx) : idx_main_v0 (idx_main_v8 i) = i := by
  have h0 : (i 0).val < 8 := (i 0).isLt
  have h1 : (i 1).val < 8192 := (i 1).isLt
  have h2 : (i 2).val < 1024 := (i 2).isLt
  funext a
  apply Fin.ext
  match a with
  | ⟨0, _⟩ =>
    show ((((((i 0).val * 8192 + (i 1).val) * 1024 + (i 2).val) / 8388608 * 8192 + (((i 0).val * 8192 + (i 1).val) * 1024 + (i 2).val) / 1024 % 8192) * 16 + (((i 0).val * 8192 + (i 1).val) * 1024 + (i 2).val) / 64 % 16) * 64 + (((i 0).val * 8192 + (i 1).val) * 1024 + (i 2).val) % 64) / 8388608 = (i 0).val
    omega
  | ⟨1, _⟩ =>
    show ((((((i 0).val * 8192 + (i 1).val) * 1024 + (i 2).val) / 8388608 * 8192 + (((i 0).val * 8192 + (i 1).val) * 1024 + (i 2).val) / 1024 % 8192) * 16 + (((i 0).val * 8192 + (i 1).val) * 1024 + (i 2).val) / 64 % 16) * 64 + (((i 0).val * 8192 + (i 1).val) * 1024 + (i 2).val) % 64) / 1024 % 8192 = (i 1).val
    omega
  | ⟨2, _⟩ =>
    show ((((((i 0).val * 8192 + (i 1).val) * 1024 + (i 2).val) / 8388608 * 8192 + (((i 0).val * 8192 + (i 1).val) * 1024 + (i 2).val) / 1024 % 8192) * 16 + (((i 0).val * 8192 + (i 1).val) * 1024 + (i 2).val) / 64 % 16) * 64 + (((i 0).val * 8192 + (i 1).val) * 1024 + (i 2).val) % 64) % 1024 = (i 2).val
    omega

/-- The angle a result entry is scaled by: through the flattening, the two spreads, the dropped unit axis and the
    slice, entry `(b, s, e)` reads the angle table at head `e / 64`, qubit `e % 64`, axis 0. -/
theorem angle_index (i : S8x8192x1024.Idx) :
    idx_main_v1 (idx_main_v2 (idx_main_v5 (idx_main_v6 (idx_main_v8 i)))) = angleOf i := by
  have h0 : (i 0).val < 8 := (i 0).isLt
  have h1 : (i 1).val < 8192 := (i 1).isLt
  have h2 : (i 2).val < 1024 := (i 2).isLt
  refine eq_angleOf i _ ?_ ?_ ?_
  · show ((((i 0).val * 8192 + (i 1).val) * 1024 + (i 2).val) / 64 % 16 * 64 + (((i 0).val * 8192 + (i 1).val) * 1024 + (i 2).val) % 64) / 64 = (i 2).val / 64
    omega
  · show ((((i 0).val * 8192 + (i 1).val) * 1024 + (i 2).val) / 64 % 16 * 64 + (((i 0).val * 8192 + (i 1).val) * 1024 + (i 2).val) % 64) / 1 % 64 = (i 2).val % 64
    omega
  · rfl

/-- THE REFERENCE'S RESULT, on the extended reals, is the readout of its two arguments. -/
theorem result_eq (x0 : (⟨S8x8192x1024, .f32⟩ : BufTy).Contents (Elt Ideal)) (x1 : (⟨S16x64x3, .f32⟩ : BufTy).Contents (Elt Ideal)) :
    val_main_v8 (F := Ideal) x0 x1 = readout (F := Ideal) x0 x1 := by
  funext i
  rw [val_main_v8_apply, val_main_v7_apply, val_main_v4_apply, val_main_v0_apply, val_main_v6_apply,
    val_main_v5_apply, val_main_v3_apply, val_main_v2_apply, val_main_v1_apply, split_flatten, angle_index]
  rfl

end Cert.ReferenceIdeal.RefValue

end
-- ==== Proof.lean ====
/-
  The certificate of the per-channel cosine readout: the kernel `cos x · scale`, with `scale` the cosines of the RY
  angles laid out as one row of 1024 channels on the host, against the reference `cos (x split into heads) · cos (RY
  angles)` flattened back.

  Both programs compute one function of their two arguments, the readout of Proof/CosScale.lean:
  `(b, s, e) ↦ cos (x (b, s, e)) · cos (p (e / 64, e % 64, 0))`. The kernel's side is Proof/ScaleRow.lean (what the host
  prefix leaves in the scale row) and Proof/KernelArray.lean (each grid point writes back its block of the readout, and
  the blocks tile the array); the reference's side is Proof/ReferenceRead.lean (its nine host operations read at an
  index). The only difference between the two texts is which unit takes the outer cosine — the vector unit in the kernel,
  the host in the reference — and on the extended reals both are the exact cosine, at the infinities too; no sum is
  regrouped and no factor is moved, so the equality holds at every extended real and the precondition is not used.
  The idealization rewrote no operation, so `preserves` has nothing to state.
-/
import proofs.«129193_j65481071406286_2_alg».proof.Defs
import proofs.«129193_j65481071406286_2_alg».proof.Proof.Gen.Kernel
import proofs.«129193_j65481071406286_2_alg».proof.Proof.Gen.Kernel.Skeleton
import proofs.«129193_j65481071406286_2_alg».proof.Proof.Gen.Kernel.Launch
import proofs.«129193_j65481071406286_2_alg».proof.Proof.Gen.Kernel.Points
import proofs.«129193_j65481071406286_2_alg».proof.Proof.Gen.Kernel.Frame
import proofs.«129193_j65481071406286_2_alg».proof.Proof.Gen.KernelIdeal
import proofs.«129193_j65481071406286_2_alg».proof.Proof.Gen.KernelIdeal.Skeleton
import proofs.«129193_j65481071406286_2_alg».proof.Proof.Gen.KernelIdeal.Launch
import proofs.«129193_j65481071406286_2_alg».proof.Proof.Gen.KernelIdeal.Points
import proofs.«129193_j65481071406286_2_alg».proof.Proof.Gen.KernelIdeal.Frame
import proofs.«129193_j65481071406286_2_alg».proof.Proof.Gen.ReferenceIdeal
import proofs.«129193_j65481071406286_2_alg».proof.Proof.Gen.KernelIdeal.Value
import proofs.«129193_j65481071406286_2_alg».proof.Proof.Gen.ReferenceIdeal.Run
import proofs.«129193_j65481071406286_2_alg».proof.Proof.Gen.ReferenceIdeal.Read
import proofs.«129193_j65481071406286_2_alg».proof.Proof.Gen.Pre_finite_inputs
import proofs.«129193_j65481071406286_2_alg».proof.Proof.CosScale
import proofs.«129193_j65481071406286_2_alg».proof.Proof.ScaleRow
import proofs.«129193_j65481071406286_2_alg».proof.Proof.KernelArray
import proofs.«129193_j65481071406286_2_alg».proof.Proof.ReferenceRead
import Idealize.ShloMosaic.Adequacy
import Idealize.ShloMosaic.Init

noncomputable section

namespace Cert.Proof

open Idealize.ShloMosaic Idealize.ShloMosaic.TcCoe Idealize.SL.Sem

namespace Claims

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference has no region: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- On the extended reals the kernel's result array ends at the readout of its arguments (Proof/KernelArray.lean),
    and the reference's at its operations' term of arguments that agree with them, which is the same readout
    (Proof/ReferenceRead.lean). -/
theorem algebraic : Cert.algebraic_KernelIdeal_ReferenceIdeal := by
  intro m ρ m' ρ' _ hagree
  refine ⟨fun c => Cert.CosScale.readout (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Array.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.result_eq, (hagree c).1, (hagree c).2]

end Claims

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_reference, Claims.preserves, Claims.algebraic⟩

end Cert.Proof

end
